-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S100000x128 : Shape := ⟨2, ![100000, 128]⟩
abbrev S512x128 : Shape := ⟨2, ![512, 128]⟩
abbrev S512 : Shape := ⟨1, ![512]⟩
abbrev S1600000 : Shape := ⟨1, ![1600000]⟩
abbrev S100000 : Shape := ⟨1, ![100000]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x128 .f32) (main_arg5 : FVec F S512 .f32) (main_arg6 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S800000x128 .f32) (main_arg1 : FVec F S100000x128 .f32) (main_arg2 : FVec F S100000x128 .f32) (main_arg3 : FVec F S512x128 .f32) (main_arg4 : FVec F S512x128 .f32) (main_arg5 : FVec F S512 .f32) (main_arg6 : FVec F S512 .f32) (main_arg7 : IVec S1600000 32) (main_arg8 : IVec S1600000 32) (main_arg9 : IVec S100000 32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S800000x128 : Shape := ⟨2, ![800000, 128]⟩
abbrev S100000x128 : Shape := ⟨2, ![100000, 128]⟩
abbrev S512x128 : Shape := ⟨2, ![512, 128]⟩
abbrev S512 : Shape := ⟨1, ![512]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S128x512 : Shape := ⟨2, ![128, 512]⟩
abbrev S1x512 : Shape := ⟨2, ![1, 512]⟩
abbrev S4000x128 : Shape := ⟨2, ![4000, 128]⟩
abbrev S4000x512 : Shape := ⟨2, ![4000, 512]⟩

abbrev nBuf : Space → Nat
  | .hbm => 29
  | .vmem => 13
  | .smem => 0
  | _ => 0

abbrev bufTy : (tb : Table) → Fin (tcTables nBuf tb) → BufTy
  | .hbm, ⟨0, _⟩ => ⟨S800000x128, .f32⟩
  | .hbm, ⟨1, _⟩ => ⟨S100000x128, .f32⟩
  | .hbm, ⟨2, _⟩ => ⟨S100000x128, .f32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x512, .f32⟩
  | .hbm, ⟨24, _⟩ => ⟨S128x512, .f32⟩
  | .hbm, ⟨25, _⟩ => ⟨S512, .f32⟩
  | .hbm, ⟨26, _⟩ => ⟨S1x512, .f32⟩
  | .hbm, ⟨27, _⟩ => ⟨S100000x128, .f32⟩
  | .hbm, ⟨28, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_v0_0 : Ref sig .tc := ⟨.hbm, 27, rfl⟩
abbrev main_v0_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S512x128_S128x512_1_0 : S512x128.Transposes [1, 0] S128x512
  shapeCasts_S512_S1x512 : S512.ShapeCasts S1x512
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  slices_S4000x512_o0_0_S4000x128 : S4000x512.Slices ![0, 0] S4000x128
  slices_S4000x512_o0_128_S4000x128 : S4000x512.Slices ![0, 128] S4000x128
  slices_S4000x512_o0_256_S4000x128 : S4000x512.Slices ![0, 256] S4000x128
  slices_S4000x512_o0_384_S4000x128 : S4000x512.Slices ![0, 384] S4000x128
  gather_S800000x128_S1600000x1_S1600000x128_1_0_n_n_0_1_1128_wf : GatherDims.WF S800000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x512_S4000x512_1_0_0_1_n_n_wf : DotDims.WF S4000x128 S128x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)

variable [Facts₀]

def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x512_S4000x512_1_0_0_1_n_n : DotDims S4000x128 S128x512 S4000x512 where
  lhsContracting := [1]
  rhsContracting := [0]
  lhsNonContracting := [0]
  rhsNonContracting := [1]
  lhsBatch := []
  rhsBatch := []
  wf := dot_S4000x128_S128x512_S4000x512_1_0_0_1_n_n_wf

abbrev win0_0 : Pipeline.Window sig grid0 :=
  Pipeline.Window.ofSpec (Memref.whole main_call0_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S800000x128 : Shape := ⟨2, ![800000, 128]⟩
abbrev S100000x128 : Shape := ⟨2, ![100000, 128]⟩
abbrev S512x128 : Shape := ⟨2, ![512, 128]⟩
abbrev S512 : Shape := ⟨1, ![512]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S128x512 : Shape := ⟨2, ![128, 512]⟩
abbrev S100000x512 : Shape := ⟨2, ![100000, 512]⟩
abbrev S1x512 : Shape := ⟨2, ![1, 512]⟩

abbrev nBuf : Space → Nat
  | .hbm => 68
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S100000x128, .f32⟩
  | .hbm, ⟨2, _⟩ => ⟨S100000x128, .f32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x512, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | .hbm, ⟨28, _⟩ => ⟨S128x512, .f32⟩
  | .hbm, ⟨29, _⟩ => ⟨S100000x512, .f32⟩
  | .hbm, ⟨30, _⟩ => ⟨S100000x512, .f32⟩
  | .hbm, ⟨31, _⟩ => ⟨S1x512, .f32⟩
  | .hbm, ⟨32, _⟩ => ⟨S100000x512, .f32⟩
  | .hbm, ⟨33, _⟩ => ⟨S100000x512, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  slices_S100000x512_S100000x128_0_0 : S100000x512.Slices ![0, 0] S100000x128
  slices_S100000x512_S100000x128_0_128 : S100000x512.Slices ![0, 128] S100000x128
  slices_S100000x512_S100000x128_0_256 : S100000x512.Slices ![0, 256] S100000x128
  slices_S100000x512_S100000x128_0_384 : S100000x512.Slices ![0, 384] S100000x128
  gather_S800000x128_S1600000x1_S1600000x128_1_0_n_n_0_1_1128_wf : GatherDims.WF S800000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []

variable [Facts₀]

def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf

class Facts : Prop extends Facts₀ where

variable [Facts]
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Gates.lean ====
/-
  The gate pre-activations a grid point computes, read at an index.

  At one grid point the body holds a block of 4000 rows of the messages (P0) and of the hidden states (P1), the two
  transposed weight matrices whole (P2, P3: 128 channels by 512 gate columns) and the bias row (P4: one row of 512).
  It narrows the four matrices to a sixteen-bit format, which on the extended reals changes nothing, multiplies rows by
  columns twice on the matrix unit from a zero accumulator, adds the two products and then the bias row repeated down the
  4000 rows. So the entry at row y and gate column q is

      (Σ_k P0 (y, k) · P2 (k, q)  +  Σ_k P1 (y, k) · P3 (k, q))  +  P4 (0, q).
-/
import proofs.«180719_j46669114638611_2_alg».proof.Proof.Gen.KernelIdeal.Skeleton
import proofs.«180719_j46669114638611_2_alg».proof.Proof.LibPlainDot
import Idealize.ShloMosaic.Lib.Pipeline.Value
import Idealize.ShloMosaic.Lib.ValueIdx

noncomputable section

open scoped BigOperators

namespace Cert.KernelIdeal.Gates

open Cert.KernelIdeal Cert.KernelIdeal.Gen Idealize.ShloMosaic Idealize.ShloMosaic.ValueIdx

/-- The bias row repeated down the rows: row y, column q reads the row's entry q. -/
theorem bias_row (P4 : Vec Ideal S1x512 .f32) (y : Fin 4000) (q : Fin 512) :
    broadcastTo S4000x512 P4 broadcasts_S1x512_S4000x512 (ix2 y q) = P4 (ix2 (0 : Fin 1) q) := by
  refine broadcastTo_apply P4 _ (ix2 y q) (ix2 (0 : Fin 1) q) (fun a => ?_)
  match a with
  | ⟨0, _⟩ => rfl
  | ⟨1, _⟩ => rfl

/-- The pre-activations of a block at row y and gate column q: the two row-by-column sums and the bias entry. -/
theorem pay1_apply (P0 P1 : Vec Ideal S4000x128 .f32) (P2 P3 : Vec Ideal S128x512 .f32) (P4 : Vec Ideal S1x512 .f32)
    (y : Fin 4000) (q : Fin 512) :
    k0_pay1 (F := Ideal) P0 P1 P2 P3 P4 (ix2 y q)
      = ((∑ k : Fin 128, P0 (ix2 y k) * P2 (ix2 k q)) + (∑ k : Fin 128, P1 (ix2 y k) * P3 (ix2 k q))) + P4 (ix2 (0 : Fin 1) q) := by
  unfold k0_pay1
  simp only [shapeCast_self]
  show (FloatOps.matmul dot_S4000x128_S128x512_S4000x512_1_0_0_1_n_n none (truncf FTy.bf16 P0 bitsLt_bf16_f32)
          (truncf FTy.bf16 P2 bitsLt_bf16_f32) (constant (F := Ideal) S4000x512 FTy.f32 0x00000000#32) (ix2 y q)
        + FloatOps.matmul dot_S4000x128_S128x512_S4000x512_1_0_0_1_n_n none (truncf FTy.bf16 P1 bitsLt_bf16_f32)
          (truncf FTy.bf16 P3 bitsLt_bf16_f32) (constant (F := Ideal) S4000x512 FTy.f32 0x00000000#32) (ix2 y q))
      + broadcastTo S4000x512 P4 broadcasts_S1x512_S4000x512 (ix2 y q) = _
  rw [bias_row, Cert.PlainDot.matmul_zero_apply _ rfl rfl rfl rfl rfl rfl, Cert.PlainDot.matmul_zero_apply _ rfl rfl rfl rfl rfl rfl]
  rfl

end Cert.KernelIdeal.Gates

end
-- ==== Proof.Spec.lean ====
/-
  One step of an LSTM cell over every vertex, on the extended reals, as ONE function of its arrays.

  For a vertex r and a gate column q (four gates of 128 columns each: input, forget, cell, output, in this order),
  the pre-activation is

      pre r q = (Σ_k msg (r, k) · W_ih (q, k)  +  Σ_k h (r, k) · W_hh (q, k))  +  (b_ih q + b_hh q),

  the new cell state is  c' (r, j) = σ (pre r (128 + j)) · c (r, j) + σ (pre r j) · tanh (pre r (256 + j)),
  and the new hidden state is  h' (r, j) = σ (pre r (384 + j)) · tanh (c' (r, j)),  with σ x = 1 / (1 + e^(-x)).

  Two facts join the two programs to this function. A sum of four extended reals may be regrouped and reordered
  freely (addition on the extended reals is commutative and associative, infinities included), so adding the two
  biases one at a time between the two products gives the same pre-activation as adding their sum last
  (pre_regroup). And σ is by definition the quotient 1 / (1 + e^(-x)) with the conventions of the extended reals at
  the infinities, so a program that spells the quotient out computes σ (logistic_spelled).
-/
import Idealize.ShloMosaic.PureOps.Ideal
import Idealize.ShloMosaic.Lib.ValueIdx

noncomputable section

open scoped BigOperators

namespace Cert.Lstm

open Idealize.ShloMosaic Idealize.ShloMosaic.ValueIdx

/-- Vertex features: 100000 vertices, 128 channels. -/
abbrev SV : Shape := ⟨2, ![100000, 128]⟩
/-- A weight matrix: 512 gate columns by 128 channels. -/
abbrev SW : Shape := ⟨2, ![512, 128]⟩
/-- A bias: one entry per gate column. -/
abbrev SB : Shape := ⟨1, ![512]⟩

/-- Column j of the input gate. -/
abbrev colI (j : Fin 128) : Fin 512 := ⟨j.val, by have := j.isLt; omega⟩
/-- Column j of the forget gate. -/
abbrev colF (j : Fin 128) : Fin 512 := ⟨j.val + 128, by have := j.isLt; omega⟩
/-- Column j of the cell gate. -/
abbrev colG (j : Fin 128) : Fin 512 := ⟨j.val + 256, by have := j.isLt; omega⟩
/-- Column j of the output gate. -/
abbrev colO (j : Fin 128) : Fin 512 := ⟨j.val + 384, by have := j.isLt; omega⟩

section
variable (msg h c : FVec Ideal SV .f32) (wi wh : FVec Ideal SW .f32) (bi bh : FVec Ideal SB .f32)

/-- The pre-activation of gate column q at vertex r. -/
def pre (r : Fin 100000) (q : Fin 512) : EReal :=
  ((∑ k : Fin 128, msg (ix2 r k) * wi (ix2 q k)) + (∑ k : Fin 128, h (ix2 r k) * wh (ix2 q k))) + (bi (ix1 q) + bh (ix1 q))

/-- The new cell state at vertex r, channel j. -/
def cNew (r : Fin 100000) (j : Fin 128) : EReal :=
  Ideal.logistic (pre msg h wi wh bi bh r (colF j)) * c (ix2 r j)
    + Ideal.logistic (pre msg h wi wh bi bh r (colI j)) * Ideal.tanh (pre msg h wi wh bi bh r (colG j))

/-- The new hidden state at vertex r, channel j. -/
def hNew (r : Fin 100000) (j : Fin 128) : EReal :=
  Ideal.logistic (pre msg h wi wh bi bh r (colO j)) * Ideal.tanh (cNew msg h c wi wh bi bh r j)

/-- The new cell states as an array. -/
def cellOut : FVec Ideal SV .f32 := fun i => cNew msg h c wi wh bi bh (i 0) (i 1)

/-- The new hidden states as an array. -/
def hiddenOut : FVec Ideal SV .f32 := fun i => hNew msg h c wi wh bi bh (i 0) (i 1)

end

/-- Four extended reals added as ((A + b) + B) + b' or as (A + B) + (b + b'): one sum. -/
theorem pre_regroup (A B b b' : EReal) : ((A + b) + B) + b' = (A + B) + (b + b') := by
  rw [add_assoc A b B, add_comm b B, ← add_assoc A B b, add_assoc (A + B) b b']

/-- The quotient 1 / (1 + e^(-x)) spelled out is the logistic function, on every extended real. -/
theorem logistic_spelled (x : EReal) : Ideal.div 1 (1 + Ideal.exp (-x)) = Ideal.logistic x := rfl

end Cert.Lstm

end
-- ==== Proof.BlockValue.lean ====
/-
  What one grid point leaves in its two output blocks, entry by entry.

  Write x0, x1, x2 for the point's blocks of messages, hidden states and cell states (4000 rows each), x3, x4 for the
  two transposed weight matrices and x5 for the bias row. The pre-activation of row y and gate column q is
  preB y q = (Σ_k x0 (y, k) · x3 (k, q) + Σ_k x1 (y, k) · x4 (k, q)) + x5 (0, q). The body cuts the 512 gate columns into the
  four gates (input at column j, forget at 128 + j, cell at 256 + j, output at 384 + j), applies the logistic function to
  three of them and the hyperbolic tangent to the cell gate, and stores

      cB y j = σ (preB y (128 + j)) · x2 (y, j) + σ (preB y j) · tanh (preB y (256 + j))      (the new cell state)
      hB y j = σ (preB y (384 + j)) · tanh (cB y j)                                           (the new hidden state)

  over the whole of each output block.
-/
import proofs.«180719_j46669114638611_2_alg».proof.Proof.Gen.KernelIdeal.Value
import proofs.«180719_j46669114638611_2_alg».proof.Proof.Gates
import proofs.«180719_j46669114638611_2_alg».proof.Proof.Spec
import Idealize.ShloMosaic.PureOps.Ideal

noncomputable section

open scoped BigOperators

namespace Cert.KernelIdeal.BlockValue

open Cert.KernelIdeal Cert.KernelIdeal.Gen Idealize.ShloMosaic Idealize.ShloMosaic.ValueIdx Cert.Lstm

variable (x0 x1 x2 : Vec Ideal S4000x128 .f32) (x3 x4 : Vec Ideal S128x512 .f32) (x5 : Vec Ideal S1x512 .f32)

/-- The pre-activation of row y, gate column q, from the point's blocks. -/
def preB (y : Fin 4000) (q : Fin 512) : EReal :=
  ((∑ k : Fin 128, x0 (ix2 y k) * x3 (ix2 k q)) + (∑ k : Fin 128, x1 (ix2 y k) * x4 (ix2 k q))) + x5 (ix2 (0 : Fin 1) q)

/-- The new cell state of row y, channel j, from the point's blocks. -/
def cB (y : Fin 4000) (j : Fin 128) : EReal :=
  Ideal.logistic (preB x0 x1 x3 x4 x5 y (colF j)) * x2 (ix2 y j)
    + Ideal.logistic (preB x0 x1 x3 x4 x5 y (colI j)) * Ideal.tanh (preB x0 x1 x3 x4 x5 y (colG j))

/-- The new hidden state of row y, channel j, from the point's blocks. -/
def hB (y : Fin 4000) (j : Fin 128) : EReal :=
  Ideal.logistic (preB x0 x1 x3 x4 x5 y (colO j)) * Ideal.tanh (cB x0 x1 x2 x3 x4 x5 y j)

/-- The zero offsets of a whole-block access. -/
theorem hz : (![0, 0] : Fin 2 → Nat) = fun _ => 0 := funext fun a => by fin_cases a <;> rfl

/-- The cell-state block at (y, j). -/
theorem out7_apply (y : Fin 4000) (j : Fin 128) :
    out0_7 (F := Ideal) x0 x1 x2 x3 x4 x5 (ix2 y j) = cB x0 x1 x2 x3 x4 x5 y j := by
  unfold out0_7
  simp only [View.ld_unit_zero (S := S4000x128) hz, View.ld_unit_zero (S := S128x512) hz, View.ld_unit_zero (S := S1x512) hz]
  rw [Value.canon7_eq]
  have e0 : Value.ix7_0 (ix2 y j) = ix2 y (colF j) := funext fun a => by match a with | ⟨0, _⟩ => rfl | ⟨1, _⟩ => rfl
  have e1 : Value.ix7_1 (ix2 y j) = ix2 y j := funext fun a => by match a with | ⟨0, _⟩ => rfl | ⟨1, _⟩ => rfl
  have e2 : Value.ix7_2 (ix2 y j) = ix2 y (colI j) := funext fun a => by match a with | ⟨0, _⟩ => rfl | ⟨1, _⟩ => rfl
  have e3 : Value.ix7_3 (ix2 y j) = ix2 y (colG j) := funext fun a => by match a with | ⟨0, _⟩ => rfl | ⟨1, _⟩ => rfl
  show FloatOps.addf (FloatOps.mulf (FloatOps.logistic ((k0_pay1 x0 x1 x3 x4 x5) (Value.ix7_0 (ix2 y j)))) (x2 (Value.ix7_1 (ix2 y j)))) (FloatOps.mulf (FloatOps.logistic ((k0_pay1 x0 x1 x3 x4 x5) (Value.ix7_2 (ix2 y j)))) (FloatOps.tanh ((k0_pay1 x0 x1 x3 x4 x5) (Value.ix7_3 (ix2 y j))))) = _
  rw [e0, e1, e2, e3, Gates.pay1_apply, Gates.pay1_apply, Gates.pay1_apply]
  rfl

/-- The hidden-state block at (y, j). -/
theorem out6_apply (y : Fin 4000) (j : Fin 128) :
    out0_6 (F := Ideal) x0 x1 x2 x3 x4 x5 (ix2 y j) = hB x0 x1 x2 x3 x4 x5 y j := by
  unfold out0_6
  simp only [View.ld_unit_zero (S := S4000x128) hz, View.ld_unit_zero (S := S128x512) hz, View.ld_unit_zero (S := S1x512) hz]
  rw [Value.canon6_eq]
  have e0 : Value.ix6_0 (ix2 y j) = ix2 y (colO j) := funext fun a => by match a with | ⟨0, _⟩ => rfl | ⟨1, _⟩ => rfl
  have e1 : Value.ix6_1 (ix2 y j) = ix2 y (colF j) := funext fun a => by match a with | ⟨0, _⟩ => rfl | ⟨1, _⟩ => rfl
  have e2 : Value.ix6_2 (ix2 y j) = ix2 y j := funext fun a => by match a with | ⟨0, _⟩ => rfl | ⟨1, _⟩ => rfl
  have e3 : Value.ix6_3 (ix2 y j) = ix2 y (colI j) := funext fun a => by match a with | ⟨0, _⟩ => rfl | ⟨1, _⟩ => rfl
  have e4 : Value.ix6_4 (ix2 y j) = ix2 y (colG j) := funext fun a => by match a with | ⟨0, _⟩ => rfl | ⟨1, _⟩ => rfl
  show FloatOps.mulf (FloatOps.logistic ((k0_pay1 x0 x1 x3 x4 x5) (Value.ix6_0 (ix2 y j)))) (FloatOps.tanh (FloatOps.addf (FloatOps.mulf (FloatOps.logistic ((k0_pay1 x0 x1 x3 x4 x5) (Value.ix6_1 (ix2 y j)))) (x2 (Value.ix6_2 (ix2 y j)))) (FloatOps.mulf (FloatOps.logistic ((k0_pay1 x0 x1 x3 x4 x5) (Value.ix6_3 (ix2 y j)))) (FloatOps.tanh ((k0_pay1 x0 x1 x3 x4 x5) (Value.ix6_4 (ix2 y j))))))) = _
  rw [e0, e1, e2, e3, e4, Gates.pay1_apply, Gates.pay1_apply, Gates.pay1_apply, Gates.pay1_apply]
  rfl

end Cert.KernelIdeal.BlockValue

end
-- ==== Proof.Entry.lean ====
/-
  What the region finds in the four arrays the host writes before it.

  Before the region is entered the host gathers one row of edge features per nonzero (a negative edge index first
  wrapped around by adding the number of edges), adds the gathered rows into their vertices' rows of a zero array, transposes
  the two weight matrices, and adds the two biases into one row. These are the arrays four of the region's windows stage:
  the messages (a function of the edge features and the two index lists, msgOf), the transposed weights and the bias row.
  Read at an index, a transposed matrix at (k, q) is the matrix at (q, k), and the bias row at (0, q) is the sum of the two
  biases' entries q.
-/
import proofs.«180719_j46669114638611_2_alg».proof.Proof.Gen.KernelIdeal.Frame
import Idealize.ShloMosaic.PureOps.Ideal
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- The messages: each vertex's row is the sum of the edge-feature rows of the nonzeros that name it, the edge index
    read with a negative value wrapped around. -/
def msgOf (x0 : FVec Ideal S800000x128 .f32) (x7 x8 : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x8)
    (Host.gather gather_S800000x128_S1600000x1_S1600000x128_1_0_n_n_0_1_1128 x0
      (broadcastInDim S1600000x1 ![0] bcast_S1600000_S1600000x1_0
        (select (cmpi .slt x7 (broadcastInDim S1600000 ![] bcast_S_S1600000 (constantI S_ 32 0#32)))
          (addi x7 (broadcastInDim S1600000 ![] bcast_S_S1600000 (constantI S_ 32 800000#32))) x7)))

variable (m : (ℓ : Loc nD τ sig) → Buf (Elt Ideal) ℓ)

/-- The first window's array holds the messages. -/
theorem V_msg (c : Dev nD) : (V m c main_call0_v9 : S100000x128.Idx → EReal)
    = msgOf (m ((c : Thread nD τ).loc main_arg0)) (m ((c : Thread nD τ).loc main_arg7)) (m ((c : Thread nD τ).loc main_arg8)) := by
  dsimp only [Gen.V, Gen.hostOps0]
  after_results
  rfl

/-- The fourth window's array holds the input weights transposed. -/
theorem V_wi (c : Dev nD) : (V m c main_call0_v10 : S128x512.Idx → EReal)
    = transpose S128x512 [1, 0] (m ((c : Thread nD τ).loc main_arg3)) transposes_S512x128_S128x512_1_0 := by
  dsimp only [Gen.V, Gen.hostOps0]
  after_results
  rfl

/-- The fifth window's array holds the hidden weights transposed. -/
theorem V_wh (c : Dev nD) : (V m c main_call0_v11 : S128x512.Idx → EReal)
    = transpose S128x512 [1, 0] (m ((c : Thread nD τ).loc main_arg4)) transposes_S512x128_S128x512_1_0 := by
  dsimp only [Gen.V, Gen.hostOps0]
  after_results
  rfl

/-- The sixth window's array holds the two biases added, as one row. -/
theorem V_b (c : Dev nD) : (V m c main_call0_v13 : S1x512.Idx → EReal)
    = shapeCast S1x512 (addf (F := Ideal) (φ := .f32) (m ((c : Thread nD τ).loc main_arg5)) (m ((c : Thread nD τ).loc main_arg6))) shapeCasts_S512_S1x512 := by
  dsimp only [Gen.V, Gen.hostOps0]
  after_results
  rfl

/-- A transposed weight matrix at (k, q) is the matrix at (q, k). -/
theorem wT_apply (x : FVec Ideal S512x128 .f32) (k : Fin 128) (q : Fin 512) :
    transpose S128x512 [1, 0] x transposes_S512x128_S128x512_1_0 (ix2 k q) = x (ix2 q k) :=
  transpose_apply [1, 0] x transposes_S512x128_S128x512_1_0 (ix2 k q) (ix2 q k) (fun b => match b with
    | ⟨0, _⟩ => rfl
    | ⟨1, _⟩ => rfl)

/-- The bias row at (0, q) is the sum of the two biases' entries q. -/
theorem b_apply (x y : FVec Ideal S512 .f32) (q : Fin 512) :
    shapeCast S1x512 (addf x y) shapeCasts_S512_S1x512 (ix2 (0 : Fin 1) q) = x (ix1 q) + y (ix1 q) :=
  shapeCast_a_1a_apply (addf x y) shapeCasts_S512_S1x512 (0 : Fin 1) q

end Cert.KernelIdeal.Entry

end
-- ==== Proof.Blocks.lean ====
/-
  From the blocks to the two result arrays.

  The grid has 25 points; point t works on rows 4000·t … 4000·t + 3999 of the messages, the hidden states and the cell
  states, on the whole of the two transposed weight matrices and of the bias row, and writes rows 4000·t … 4000·t + 3999
  of the two results. Reading each input block where the output's row says — row y of point t's block is row
  r = 4000·t + y of the array, a transposed weight at (k, q) is the weight at (q, k), the bias row at (0, q) is the sum of the
  two biases at q — the block's pre-activations are the specification's at row r, and so are the new cell and hidden states.
  Row r of the array lies in the block of point r / 4000, so the 25 blocks cover the array, and each result array ends
  holding the specification's function of the argument arrays.
-/
import proofs.«180719_j46669114638611_2_alg».proof.Proof.Gen.KernelIdeal.Value
import proofs.«180719_j46669114638611_2_alg».proof.Proof.BlockValue
import proofs.«180719_j46669114638611_2_alg».proof.Proof.Entry
import proofs.«180719_j46669114638611_2_alg».proof.Proof.Spec
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Lstm Cert.KernelIdeal.BlockValue Cert.KernelIdeal.Entry
open Idealize.ShloMosaic.Pipeline (Dat)

variable (m : (ℓ : Loc nD τ sig) → Buf (Elt Ideal) ℓ) (ρ : Dev nD → PrngReg)

/-- The messages as the region finds them, from the argument arrays. -/
abbrev msgA (c : Dev nD) : FVec Ideal S100000x128 .f32 :=
  msgOf (m ((c : Thread nD τ).loc main_arg0)) (m ((c : Thread nD τ).loc main_arg7)) (m ((c : Thread nD τ).loc main_arg8))

/-- The hidden states, the cell states, the two weight matrices and the two biases among the argument arrays. -/
abbrev argH (c : Dev nD) : FVec Ideal S100000x128 .f32 := m ((c : Thread nD τ).loc main_arg1)
abbrev argC (c : Dev nD) : FVec Ideal S100000x128 .f32 := m ((c : Thread nD τ).loc main_arg2)
abbrev argWi (c : Dev nD) : FVec Ideal S512x128 .f32 := m ((c : Thread nD τ).loc main_arg3)
abbrev argWh (c : Dev nD) : FVec Ideal S512x128 .f32 := m ((c : Thread nD τ).loc main_arg4)
abbrev argBi (c : Dev nD) : FVec Ideal S512 .f32 := m ((c : Thread nD τ).loc main_arg5)
abbrev argBh (c : Dev nD) : FVec Ideal S512 .f32 := m ((c : Thread nD τ).loc main_arg6)

/-- Point t's six input blocks, at their literal shapes. -/
abbrev ib0 (c : Dev nD) (t : Fin cfg0.N) : Vec Ideal S4000x128 .f32 := iblk m c 0 t
abbrev ib1 (c : Dev nD) (t : Fin cfg0.N) : Vec Ideal S4000x128 .f32 := iblk m c 1 t
abbrev ib2 (c : Dev nD) (t : Fin cfg0.N) : Vec Ideal S4000x128 .f32 := iblk m c 2 t
abbrev ib3 (c : Dev nD) (t : Fin cfg0.N) : Vec Ideal S128x512 .f32 := iblk m c 3 t
abbrev ib4 (c : Dev nD) (t : Fin cfg0.N) : Vec Ideal S128x512 .f32 := iblk m c 4 t
abbrev ib5 (c : Dev nD) (t : Fin cfg0.N) : Vec Ideal S1x512 .f32 := iblk m c 5 t

/-- The new hidden states of the argument arrays. -/
abbrev hiddenA (c : Dev nD) : FVec Ideal S100000x128 .f32 :=
  hiddenOut (msgA m c) (argH m c) (argC m c) (argWi m c) (argWh m c) (argBi m c) (argBh m c)

/-- The new cell states of the argument arrays. -/
abbrev cellA (c : Dev nD) : FVec Ideal S100000x128 .f32 :=
  cellOut (msgA m c) (argH m c) (argC m c) (argWi m c) (argWh m c) (argBi m c) (argBh m c)

/-- The printed index maps over the 25 points: the five row-blocked windows sit at block row t, column 0; the three
    whole-array windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## Each input block read where the array's row says -/

/-- Row y of point t's block of ANY array standing in window 0's place is row 4000·t + y of that array. -/
theorem blk0_read (t : Fin cfg0.N) (A : S100000x128.Idx → EReal) (y : Fin 4000) (k : Fin 128) (r : Fin 100000) (hr : r.val = 4000 * t.val + y.val) :
    ((cfg0.win 0).blk t).view.read (Elt Ideal) A (ix2 y k) = A (ix2 r k) := by
  obtain ⟨⟨e0, e1⟩, -⟩ := idx_facts t
  rw [View.read_apply]
  refine congrArg A (funext fun a => Fin.ext ?_)
  match a with
  | ⟨0, _⟩ => show win0_0.index t (0 : Fin 2) * 4000 + 1 * y.val = r.val; rw [e0, hr]; omega
  | ⟨1, _⟩ => show win0_0.index t (1 : Fin 2) * 128 + 1 * k.val = k.val; rw [e1]; omega

/-- Row y of point t's block of ANY array standing in window 1's place is row 4000·t + y of that array. -/
theorem blk1_read (t : Fin cfg0.N) (A : S100000x128.Idx → EReal) (y : Fin 4000) (k : Fin 128) (r : Fin 100000) (hr : r.val = 4000 * t.val + y.val) :
    ((cfg0.win 1).blk t).view.read (Elt Ideal) A (ix2 y k) = A (ix2 r k) := by
  obtain ⟨-, ⟨e0, e1⟩, -⟩ := idx_facts t
  rw [View.read_apply]
  refine congrArg A (funext fun a => Fin.ext ?_)
  match a with
  | ⟨0, _⟩ => show win0_1.index t (0 : Fin 2) * 4000 + 1 * y.val = r.val; rw [e0, hr]; omega
  | ⟨1, _⟩ => show win0_1.index t (1 : Fin 2) * 128 + 1 * k.val = k.val; rw [e1]; omega

/-- Row y of point t's block of ANY array standing in window 2's place is row 4000·t + y of that array. -/
theorem blk2_read (t : Fin cfg0.N) (A : S100000x128.Idx → EReal) (y : Fin 4000) (k : Fin 128) (r : Fin 100000) (hr : r.val = 4000 * t.val + y.val) :
    ((cfg0.win 2).blk t).view.read (Elt Ideal) A (ix2 y k) = A (ix2 r k) := by
  obtain ⟨-, -, ⟨e0, e1⟩, -⟩ := idx_facts t
  rw [View.read_apply]
  refine congrArg A (funext fun a => Fin.ext ?_)
  match a with
  | ⟨0, _⟩ => show win0_2.index t (0 : Fin 2) * 4000 + 1 * y.val = r.val; rw [e0, hr]; omega
  | ⟨1, _⟩ => show win0_2.index t (1 : Fin 2) * 128 + 1 * k.val = k.val; rw [e1]; omega

/-- Every point's block of ANY matrix standing in window 3's place is the whole matrix. -/
theorem blk3_read (t : Fin cfg0.N) (A : S128x512.Idx → EReal) (k : Fin 128) (q : Fin 512) :
    ((cfg0.win 3).blk t).view.read (Elt Ideal) A (ix2 k q) = A (ix2 k q) := by
  obtain ⟨-, -, -, ⟨e0, e1⟩, -⟩ := idx_facts t
  rw [View.read_apply]
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 512 + 1 * q.val = q.val; rw [e1]; omega

/-- Every point's block of ANY matrix standing in window 4's place is the whole matrix. -/
theorem blk4_read (t : Fin cfg0.N) (A : S128x512.Idx → EReal) (k : Fin 128) (q : Fin 512) :
    ((cfg0.win 4).blk t).view.read (Elt Ideal) A (ix2 k q) = A (ix2 k q) := by
  obtain ⟨-, -, -, -, ⟨e0, e1⟩, -⟩ := idx_facts t
  rw [View.read_apply]
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 512 + 1 * q.val = q.val; rw [e1]; omega

/-- Every point's block of ANY row standing in window 5's place is the whole row. -/
theorem blk5_read (t : Fin cfg0.N) (A : S1x512.Idx → EReal) (q : Fin 512) :
    ((cfg0.win 5).blk t).view.read (Elt Ideal) A (ix2 (0 : Fin 1) q) = A (ix2 (0 : Fin 1) q) := by
  obtain ⟨-, -, -, -, -, ⟨e0, e1⟩, -⟩ := idx_facts t
  rw [View.read_apply]
  refine congrArg A (funext fun a => Fin.ext ?_)
  match a with
  | ⟨0, _⟩ => show win0_5.index t (0 : Fin 2) * 1 + 1 * 0 = 0; rw [e0]
  | ⟨1, _⟩ => show win0_5.index t (1 : Fin 2) * 512 + 1 * q.val = q.val; rw [e1]; omega

/-- Row y of point t's block of messages is row 4000·t + y of the messages. -/
theorem iblk0_apply (c : Dev nD) (t : Fin cfg0.N) (y : Fin 4000) (k : Fin 128) (r : Fin 100000) (hr : r.val = 4000 * t.val + y.val) :
    ib0 m c t (ix2 y k) = msgA m c (ix2 r k) :=
  (blk0_read t (V m c main_call0_v9) y k r hr).trans (congrFun (V_msg m c) (ix2 r k))

/-- Row y of point t's block of hidden states is row 4000·t + y of the hidden states. -/
theorem iblk1_apply (c : Dev nD) (t : Fin cfg0.N) (y : Fin 4000) (k : Fin 128) (r : Fin 100000) (hr : r.val = 4000 * t.val + y.val) :
    ib1 m c t (ix2 y k) = argH m c (ix2 r k) :=
  (blk1_read t (V m c main_arg1) y k r hr).trans (congrFun (V_main_arg1 m c) (ix2 r k))

/-- Row y of point t's block of cell states is row 4000·t + y of the cell states. -/
theorem iblk2_apply (c : Dev nD) (t : Fin cfg0.N) (y : Fin 4000) (k : Fin 128) (r : Fin 100000) (hr : r.val = 4000 * t.val + y.val) :
    ib2 m c t (ix2 y k) = argC m c (ix2 r k) :=
  (blk2_read t (V m c main_arg2) y k r hr).trans (congrFun (V_main_arg2 m c) (ix2 r k))

/-- Every point's block of the transposed input weights is the whole matrix: at (k, q) the input weight at (q, k). -/
theorem iblk3_apply (c : Dev nD) (t : Fin cfg0.N) (k : Fin 128) (q : Fin 512) :
    ib3 m c t (ix2 k q) = argWi m c (ix2 q k) :=
  (blk3_read t (V m c main_call0_v10) k q).trans ((congrFun (V_wi m c) (ix2 k q)).trans (wT_apply _ k q))

/-- Every point's block of the transposed hidden weights is the whole matrix: at (k, q) the hidden weight at (q, k). -/
theorem iblk4_apply (c : Dev nD) (t : Fin cfg0.N) (k : Fin 128) (q : Fin 512) :
    ib4 m c t (ix2 k q) = argWh m c (ix2 q k) :=
  (blk4_read t (V m c main_call0_v11) k q).trans ((congrFun (V_wh m c) (ix2 k q)).trans (wT_apply _ k q))

/-- Every point's block of the bias row is the whole row: at (0, q) the sum of the two biases at q. -/
theorem iblk5_apply (c : Dev nD) (t : Fin cfg0.N) (q : Fin 512) :
    ib5 m c t (ix2 (0 : Fin 1) q) = argBi m c (ix1 q) + argBh m c (ix1 q) :=
  (blk5_read t (V m c main_call0_v13) q).trans ((congrFun (V_b m c) (ix2 (0 : Fin 1) q)).trans (b_apply _ _ q))

/-! ## The block's values are the specification's at the array's row -/

/-- The pre-activations of row y of point t's blocks are the specification's at row 4000·t + y. -/
theorem pre_block (c : Dev nD) (t : Fin cfg0.N) (y : Fin 4000) (q : Fin 512) (r : Fin 100000) (hr : r.val = 4000 * t.val + y.val) :
    preB (ib0 m c t) (ib1 m c t) (ib3 m c t) (ib4 m c t) (ib5 m c t) y q
      = pre (msgA m c) (argH m c) (argWi m c) (argWh m c) (argBi m c) (argBh m c) r q := by
  unfold preB pre
  have h0 : ∀ k : Fin 128, ib0 m c t (ix2 y k) * ib3 m c t (ix2 k q) = msgA m c (ix2 r k) * argWi m c (ix2 q k) := fun k => by
    rw [iblk0_apply m c t y k r hr, iblk3_apply m c t k q]
  have h1 : ∀ k : Fin 128, ib1 m c t (ix2 y k) * ib4 m c t (ix2 k q) = argH m c (ix2 r k) * argWh m c (ix2 q k) := fun k => by
    rw [iblk1_apply m c t y k r hr, iblk4_apply m c t k q]
  rw [Finset.sum_congr rfl (fun k _ => h0 k), Finset.sum_congr rfl (fun k _ => h1 k), iblk5_apply m c t q]

/-- The new cell state of row y of point t's blocks is the specification's at row 4000·t + y. -/
theorem c_block (c : Dev nD) (t : Fin cfg0.N) (y : Fin 4000) (j : Fin 128) (r : Fin 100000) (hr : r.val = 4000 * t.val + y.val) :
    cB (ib0 m c t) (ib1 m c t) (ib2 m c t) (ib3 m c t) (ib4 m c t) (ib5 m c t) y j
      = cNew (msgA m c) (argH m c) (argC m c) (argWi m c) (argWh m c) (argBi m c) (argBh m c) r j := by
  unfold cB cNew
  rw [pre_block m c t y (colF j) r hr, pre_block m c t y (colI j) r hr, pre_block m c t y (colG j) r hr, iblk2_apply m c t y j r hr]

/-- The new hidden state of row y of point t's blocks is the specification's at row 4000·t + y. -/
theorem h_block (c : Dev nD) (t : Fin cfg0.N) (y : Fin 4000) (j : Fin 128) (r : Fin 100000) (hr : r.val = 4000 * t.val + y.val) :
    hB (ib0 m c t) (ib1 m c t) (ib2 m c t) (ib3 m c t) (ib4 m c t) (ib5 m c t) y j
      = hNew (msgA m c) (argH m c) (argC m c) (argWi m c) (argWh m c) (argBi m c) (argBh m c) r j := by
  unfold hB hNew
  rw [pre_block m c t y (colO j) r hr, c_block m c t y j r hr]

/-- What point t leaves in the hidden-state block at y is the new hidden state at the array index i under it. -/
theorem out6_point (c : Dev nD) (t : Fin cfg0.N) (y : S4000x128.Idx) (i : S100000x128.Idx)
    (h0 : (i 0).val = 4000 * t.val + (y 0).val) (h1 : (i 1).val = (y 1).val) :
    out0_6 (ib0 m c t) (ib1 m c t) (ib2 m c t) (ib3 m c t) (ib4 m c t) (ib5 m c t) y = hiddenA m c i := by
  obtain ⟨p, q, rfl⟩ : ∃ (p : Fin 4000) (q : Fin 128), y = ix2 p q := ⟨y 0, y 1, eq_ix2 y⟩
  obtain ⟨r, j, rfl⟩ : ∃ (r : Fin 100000) (j : Fin 128), i = ix2 r j := ⟨i 0, i 1, eq_ix2 i⟩
  have h0' : r.val = 4000 * t.val + p.val := h0
  obtain rfl : q = j := Fin.ext h1.symm
  rw [out6_apply, h_block m c t p q r h0']
  rfl

/-- What point t leaves in the cell-state block at y is the new cell state at the array index i under it. -/
theorem out7_point (c : Dev nD) (t : Fin cfg0.N) (y : S4000x128.Idx) (i : S100000x128.Idx)
    (h0 : (i 0).val = 4000 * t.val + (y 0).val) (h1 : (i 1).val = (y 1).val) :
    out0_7 (ib0 m c t) (ib1 m c t) (ib2 m c t) (ib3 m c t) (ib4 m c t) (ib5 m c t) y = cellA m c i := by
  obtain ⟨p, q, rfl⟩ : ∃ (p : Fin 4000) (q : Fin 128), y = ix2 p q := ⟨y 0, y 1, eq_ix2 y⟩
  obtain ⟨r, j, rfl⟩ : ∃ (r : Fin 100000) (j : Fin 128), i = ix2 r j := ⟨i 0, i 1, eq_ix2 i⟩
  have h0' : r.val = 4000 * t.val + p.val := h0
  obtain rfl : q = j := Fin.ext h1.symm
  rw [out7_apply, c_block m c t p q r h0']
  rfl

/-! ## The write-backs, the cover, the arrays -/

/-- Window 6 at point t, for ANY block X and array G: if X at a block index y is G at the array index i in row
    4000·t + y's place, then what the window writes back of X is block t of G. (The blocks tile the array: nothing is
    clipped, and the block's index y sits at row 4000·t + y, same column.) -/
theorem writeback6 (t : Fin cfg0.N) (X : Vec Ideal S4000x128 .f32) (G : S100000x128.Idx → EReal)
    (h : ∀ (y : S4000x128.Idx) (i : S100000x128.Idx), (i 0).val = 4000 * t.val + (y 0).val → (i 1).val = (y 1).val → X y = G i) :
    (cfg0.win 6).cut (grid0.coords t) X = ((cfg0.win 6).blk t).view.read (Elt Ideal) G := by
  obtain ⟨-, -, -, -, -, -, ⟨e0, e1⟩, -⟩ := idx_facts t
  funext j
  rw [View.read_apply]
  refine h j (((cfg0.win 6).blk t).view.emb j) ?_ ?_
  · show win0_6.index t (0 : Fin 2) * 4000 + 1 * (j 0).val = 4000 * t.val + (j 0).val
    rw [e0]; omega
  · show win0_6.index t (1 : Fin 2) * 128 + 1 * (j 1).val = (j 1).val
    rw [e1]; omega

/-- The same for window 7. -/
theorem writeback7 (t : Fin cfg0.N) (X : Vec Ideal S4000x128 .f32) (G : S100000x128.Idx → EReal)
    (h : ∀ (y : S4000x128.Idx) (i : S100000x128.Idx), (i 0).val = 4000 * t.val + (y 0).val → (i 1).val = (y 1).val → X y = G i) :
    (cfg0.win 7).cut (grid0.coords t) X = ((cfg0.win 7).blk t).view.read (Elt Ideal) G := by
  obtain ⟨-, -, -, -, -, -, -, ⟨e0, e1⟩⟩ := idx_facts t
  funext j
  rw [View.read_apply]
  refine h j (((cfg0.win 7).blk t).view.emb j) ?_ ?_
  · show win0_7.index t (0 : Fin 2) * 4000 + 1 * (j 0).val = 4000 * t.val + (j 0).val
    rw [e0]; omega
  · show win0_7.index t (1 : Fin 2) * 128 + 1 * (j 1).val = (j 1).val
    rw [e1]; omega

/-- Point t writes back block t of the new hidden states. -/
theorem flushed6_eq (c : Dev nD) (t : Fin cfg0.N) :
    (dats m 0 c).flushed 6 t = ((cfg0.win 6).blk t).view.read (Elt Ideal) (hiddenA m c) :=
  (Value.flushed6 m c t).trans
    (writeback6 t (out0_6 (ib0 m c t) (ib1 m c t) (ib2 m c t) (ib3 m c t) (ib4 m c t) (ib5 m c t)) (hiddenA m c)
      (fun y i h0 h1 => out6_point m c t y i h0 h1))

/-- Point t writes back block t of the new cell states. -/
theorem flushed7_eq (c : Dev nD) (t : Fin cfg0.N) :
    (dats m 0 c).flushed 7 t = ((cfg0.win 7).blk t).view.read (Elt Ideal) (cellA m c) :=
  (Value.flushed7 m c t).trans
    (writeback7 t (out0_7 (ib0 m c t) (ib1 m c t) (ib2 m c t) (ib3 m c t) (ib4 m c t) (ib5 m c t)) (cellA m c)
      (fun y i h0 h1 => out7_point m c t y i h0 h1))

/-- An index of the hidden-state array is in point t's block iff each coordinate is in the block's range. -/
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v0_0).slice (win0_6.rect t)).set ↔ _
  rw [View.set_slice_whole, Rect.mem_set_unit]
  exact Iff.rfl

/-- An index of the cell-state array is in point t's block iff each coordinate is in the block's range. -/
theorem mem_blk7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v0_1).slice (win0_7.rect t)).set ↔ _
  rw [View.set_slice_whole, Rect.mem_set_unit]
  exact Iff.rfl

/-- The point whose block holds row r: r / 4000. -/
def pointOf (i : S100000x128.Idx) : Fin cfg0.N :=
  ⟨(i 0).val / 4000, by have h : (i 0).val < 100000 := (i 0).isLt; show (i 0).val / 4000 < grid0.N; rw [N_0]; omega⟩

/-- Every index of the hidden-state array is in some point's block. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨-, -, -, -, -, -, ⟨e0, e1⟩, -⟩ := idx_facts (pointOf i)
  have ht : (pointOf i).val = (i 0).val / 4000 := rfl
  refine ⟨pointOf i, flush0_6 _, ?_⟩
  rw [mem_blk6]
  intro a
  match a with
  | ⟨0, _⟩ => show win0_6.index (pointOf i) (0 : Fin 2) * 4000 ≤ (i 0).val ∧ (i 0).val < win0_6.index (pointOf i) (0 : Fin 2) * 4000 + 4000; rw [e0, ht]; omega
  | ⟨1, _⟩ => show win0_6.index (pointOf i) (1 : Fin 2) * 128 ≤ (i 1).val ∧ (i 1).val < win0_6.index (pointOf i) (1 : Fin 2) * 128 + 128; rw [e1]; omega

/-- Every index of the cell-state array is in some point's block. -/
theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  obtain ⟨-, -, -, -, -, -, -, ⟨e0, e1⟩⟩ := idx_facts (pointOf i)
  have ht : (pointOf i).val = (i 0).val / 4000 := rfl
  refine ⟨pointOf i, flush0_7 _, ?_⟩
  rw [mem_blk7]
  intro a
  match a with
  | ⟨0, _⟩ => show win0_7.index (pointOf i) (0 : Fin 2) * 4000 ≤ (i 0).val ∧ (i 0).val < win0_7.index (pointOf i) (0 : Fin 2) * 4000 + 4000; rw [e0, ht]; omega
  | ⟨1, _⟩ => show win0_7.index (pointOf i) (1 : Fin 2) * 128 ≤ (i 1).val ∧ (i 1).val < win0_7.index (pointOf i) (1 : Fin 2) * 128 + 128; rw [e1]; omega

/-- After the run the first result array holds the new hidden states. -/
theorem final6 (c : Dev nD) : (dats m 0 c).arrAt 6 cfg0.N = hiddenA m c :=
  (dats m 0 c).arrAt_eq_of_cover 6 (hiddenA m c) (fun t _ => flushed6_eq m c t) cover6

/-- After the run the second result array holds the new cell states. -/
theorem final7 (c : Dev nD) : (dats m 0 c).arrAt 7 cfg0.N = cellA m c :=
  (dats m 0 c).arrAt_eq_of_cover 7 (cellA m c) (fun t _ => flushed7_eq m c t) cover7

/-- The run, read: the two result arrays at the specification's functions of the argument arrays, the arguments unchanged. -/
theorem run : θ_run defs (onTc (τ := τ) (main (F := Ideal))) ⟨m, fun _ => 0, ρ⟩ fun r => ∀ c : Dev nD,
      r.2.mem ((c : Thread nD τ).loc main_v0_0) = hiddenA m c
      ∧ r.2.mem ((c : Thread nD τ).loc main_v0_1) = cellA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final6 m c), (h c).2.1.trans (final7 m c), (h c).2.2⟩)
    (Value.run_blocks m ρ)

end Cert.KernelIdeal.Blocks

end
-- ==== Proof.RefValue.lean ====
/-
  The reference's two results are the specification's functions of its arguments.

  The reference adds the gathered edge rows into the messages with the same two host operations as the kernel's
  program, multiplies the messages and the hidden states by the transposed weights over all 100000 rows at once, adds the
  two biases one after the other — ((msg·W_ihᵀ + b_ih) + h·W_hhᵀ) + b_hh, a regrouping of the specification's sum —,
  cuts the 512 columns into the four gates, and spells each logistic function out as 1 / (1 + e^(-x)), which is that
  function by definition. Read one operation at a time at an index (r, j), the cell state is the specification's cNew and the
  hidden state its hNew.
-/
import proofs.«180719_j46669114638611_2_alg».proof.Proof.Gen.ReferenceIdeal.Read
import proofs.«180719_j46669114638611_2_alg».proof.Proof.Spec
import Idealize.ShloMosaic.Lib.IdealHost

noncomputable section

open scoped BigOperators

namespace Cert.ReferenceIdeal.RefValue
open Cert.ReferenceIdeal Cert.ReferenceIdeal.Gen Cert.ReferenceIdeal.Read Idealize.ShloMosaic Idealize.ShloMosaic.ValueIdx Cert.Lstm

variable (x0 : (⟨S800000x128, .f32⟩ : BufTy).Contents (Elt Ideal)) (x1 x2 : (⟨S100000x128, .f32⟩ : BufTy).Contents (Elt Ideal))
  (x3 x4 : (⟨S512x128, .f32⟩ : BufTy).Contents (Elt Ideal)) (x5 x6 : (⟨S512, .f32⟩ : BufTy).Contents (Elt Ideal))
  (x7 x8 : (⟨S1600000, .i32⟩ : BufTy).Contents (Elt Ideal))

/-- The reference's pre-activations at (r, q) are the specification's. -/
theorem ref_pre (r : Fin 100000) (q : Fin 512) :
    val_main_v20 (F := Ideal) x0 x1 x3 x4 x5 x6 x7 x8 (ix2 r q)
      = pre (val_main_v9 (F := Ideal) x0 x7 x8) x1 x3 x4 x5 x6 r q := by
  unfold pre
  rw [val_main_v20_apply, val_main_v17_apply, val_main_v14_apply, val_main_v11_apply, val_main_v16_apply,
    val_main_v13_apply, val_main_v12_apply, val_main_v19_apply, val_main_v18_apply]
  simp only [val_main_v10_apply, val_main_v15_apply]
  have el : ∀ k : Fin 128, lidx_main_v11 (ix2 r q) k = ix2 r k := fun k => funext fun a => by
    match a with | ⟨0, _⟩ => rfl | ⟨1, _⟩ => rfl
  have er : ∀ k : Fin 128, idx_main_v10 (ridx_main_v11 (ix2 r q) k) = ix2 q k := fun k => funext fun a => by
    match a with | ⟨0, _⟩ => rfl | ⟨1, _⟩ => rfl
  have el' : ∀ k : Fin 128, lidx_main_v16 (ix2 r q) k = ix2 r k := fun k => funext fun a => by
    match a with | ⟨0, _⟩ => rfl | ⟨1, _⟩ => rfl
  have er' : ∀ k : Fin 128, idx_main_v15 (ridx_main_v16 (ix2 r q) k) = ix2 q k := fun k => funext fun a => by
    match a with | ⟨0, _⟩ => rfl | ⟨1, _⟩ => rfl
  have eb : idx_main_v12 (idx_main_v13 (ix2 r q)) = ix1 q := funext fun a => by match a with | ⟨0, _⟩ => rfl
  have eb' : idx_main_v18 (idx_main_v19 (ix2 r q)) = ix1 q := funext fun a => by match a with | ⟨0, _⟩ => rfl
  simp only [el, er, el', er', eb, eb']
  exact pre_regroup _ _ _ _

/-- The input gate: the quotient spelled out is the logistic function of the pre-activation in the gate's column. -/
theorem ref_sig_i (i : S100000x128.Idx) :
    val_main_v30 (F := Ideal) x0 x1 x3 x4 x5 x6 x7 x8 i
      = Ideal.logistic (val_main_v20 (F := Ideal) x0 x1 x3 x4 x5 x6 x7 x8 (idx_main_v21 i)) := by
  rw [val_main_v30_apply, val_main_v29_apply, val_main_cst_2_apply, val_main_v28_apply, val_main_v27_apply,
    val_main_cst_1_apply, val_main_v26_apply, val_main_v25_apply, val_main_v21_apply]
  simp only [Ideal.hostDivf_def, Ideal.addf_def, Ideal.hostUnary_exp_def, Ideal.hostNegf_def, Ideal.negf_def, Ideal.ofBits_def,
    Ideal.ofBits_one_f32]
  exact logistic_spelled _

/-- The forget gate, likewise. -/
theorem ref_sig_f (i : S100000x128.Idx) :
    val_main_v36 (F := Ideal) x0 x1 x3 x4 x5 x6 x7 x8 i
      = Ideal.logistic (val_main_v20 (F := Ideal) x0 x1 x3 x4 x5 x6 x7 x8 (idx_main_v22 i)) := by
  rw [val_main_v36_apply, val_main_v35_apply, val_main_cst_4_apply, val_main_v34_apply, val_main_v33_apply,
    val_main_cst_3_apply, val_main_v32_apply, val_main_v31_apply, val_main_v22_apply]
  simp only [Ideal.hostDivf_def, Ideal.addf_def, Ideal.hostUnary_exp_def, Ideal.hostNegf_def, Ideal.negf_def, Ideal.ofBits_def,
    Ideal.ofBits_one_f32]
  exact logistic_spelled _

/-- The output gate, likewise. -/
theorem ref_sig_o (i : S100000x128.Idx) :
    val_main_v43 (F := Ideal) x0 x1 x3 x4 x5 x6 x7 x8 i
      = Ideal.logistic (val_main_v20 (F := Ideal) x0 x1 x3 x4 x5 x6 x7 x8 (idx_main_v24 i)) := by
  rw [val_main_v43_apply, val_main_v42_apply, val_main_cst_6_apply, val_main_v41_apply, val_main_v40_apply,
    val_main_cst_5_apply, val_main_v39_apply, val_main_v38_apply, val_main_v24_apply]
  simp only [Ideal.hostDivf_def, Ideal.addf_def, Ideal.hostUnary_exp_def, Ideal.hostNegf_def, Ideal.negf_def, Ideal.ofBits_def,
    Ideal.ofBits_one_f32]
  exact logistic_spelled _

/-- The cell gate: the hyperbolic tangent of the pre-activation in the gate's column. -/
theorem ref_tanh_g (i : S100000x128.Idx) :
    val_main_v37 (F := Ideal) x0 x1 x3 x4 x5 x6 x7 x8 i
      = Ideal.tanh (val_main_v20 (F := Ideal) x0 x1 x3 x4 x5 x6 x7 x8 (idx_main_v23 i)) := by
  rw [val_main_v37_apply, val_main_v23_apply]
  exact Ideal.hostUnary_tanh_def _

/-- The four column slices: channel j of the input gate is column j, of the forget gate 128 + j, of the cell gate
    256 + j, of the output gate 384 + j. -/
theorem e21 (r : Fin 100000) (j : Fin 128) : idx_main_v21 (ix2 r j) = ix2 r (colI j) :=
  funext fun a => Fin.ext (by match a with | ⟨0, _⟩ => rfl | ⟨1, _⟩ => rfl)
theorem e22 (r : Fin 100000) (j : Fin 128) : idx_main_v22 (ix2 r j) = ix2 r (colF j) :=
  funext fun a => Fin.ext (by match a with | ⟨0, _⟩ => rfl | ⟨1, _⟩ => (show 128 + j.val = j.val + 128; omega))
theorem e23 (r : Fin 100000) (j : Fin 128) : idx_main_v23 (ix2 r j) = ix2 r (colG j) :=
  funext fun a => Fin.ext (by match a with | ⟨0, _⟩ => rfl | ⟨1, _⟩ => (show 256 + j.val = j.val + 256; omega))
theorem e24 (r : Fin 100000) (j : Fin 128) : idx_main_v24 (ix2 r j) = ix2 r (colO j) :=
  funext fun a => Fin.ext (by match a with | ⟨0, _⟩ => rfl | ⟨1, _⟩ => (show 384 + j.val = j.val + 384; omega))

/-- The reference's cell state at (r, j) is the specification's. -/
theorem ref_cell (r : Fin 100000) (j : Fin 128) :
    val_main_v46 (F := Ideal) x0 x1 x2 x3 x4 x5 x6 x7 x8 (ix2 r j)
      = cNew (val_main_v9 (F := Ideal) x0 x7 x8) x1 x2 x3 x4 x5 x6 r j := by
  unfold cNew
  rw [val_main_v46_apply, val_main_v44_apply, val_main_v45_apply, ref_sig_f, ref_sig_i, ref_tanh_g, e21, e22, e23,
    ref_pre, ref_pre, ref_pre]
  rfl

/-- The reference's hidden state at (r, j) is the specification's. -/
theorem ref_hidden (r : Fin 100000) (j : Fin 128) :
    val_main_v48 (F := Ideal) x0 x1 x2 x3 x4 x5 x6 x7 x8 (ix2 r j)
      = hNew (val_main_v9 (F := Ideal) x0 x7 x8) x1 x2 x3 x4 x5 x6 r j := by
  unfold hNew
  rw [val_main_v48_apply, val_main_v47_apply, ref_sig_o, ref_cell, e24, ref_pre, Ideal.hostUnary_tanh_def]
  exact Ideal.mulf_def _ _

/-- The reference's cell-state array is the specification's. -/
theorem ref_cell_eq : val_main_v46 (F := Ideal) x0 x1 x2 x3 x4 x5 x6 x7 x8
    = cellOut (val_main_v9 (F := Ideal) x0 x7 x8) x1 x2 x3 x4 x5 x6 := by
  funext i
  obtain ⟨r, j, rfl⟩ : ∃ (r : Fin 100000) (j : Fin 128), i = ix2 r j := ⟨i 0, i 1, eq_ix2 i⟩
  exact ref_cell x0 x1 x2 x3 x4 x5 x6 x7 x8 r j

/-- The reference's hidden-state array is the specification's. -/
theorem ref_hidden_eq : val_main_v48 (F := Ideal) x0 x1 x2 x3 x4 x5 x6 x7 x8
    = hiddenOut (val_main_v9 (F := Ideal) x0 x7 x8) x1 x2 x3 x4 x5 x6 := by
  funext i
  obtain ⟨r, j, rfl⟩ : ∃ (r : Fin 100000) (j : Fin 128), i = ix2 r j := ⟨i 0, i 1, eq_ix2 i⟩
  exact ref_hidden x0 x1 x2 x3 x4 x5 x6 x7 x8 r j

end Cert.ReferenceIdeal.RefValue
end
-- ==== Proof.lean ====
/-
  The kernel program and its reference compute one single-step LSTM update over 100000 vertices.

  Both programs first form the messages: each vertex's row is the sum of the edge-feature rows of the nonzeros naming it
  (a gather of rows followed by a scatter-add into a zero array). They do it with the same two host operations on the same
  operands, so the messages are one term of the arguments on both sides and are never opened. From there, for vertex r and
  gate column q, with W_ih, W_hh the weight matrices and b_ih, b_hh the biases,

      pre r q = (Σ_k msg (r, k) · W_ih (q, k) + Σ_k h (r, k) · W_hh (q, k)) + (b_ih q + b_hh q)
      c' (r, j) = σ (pre r (128 + j)) · c (r, j) + σ (pre r j) · tanh (pre r (256 + j))
      h' (r, j) = σ (pre r (384 + j)) · tanh (c' (r, j)),            σ x = 1 / (1 + e^(-x)).

  The kernel computes this 4000 rows at a time over a grid of 25 points, from transposed weights and a bias row the host
  prepared; each point's output blocks are the rows 4000·t … 4000·t + 3999 of c' and h', and the 25 blocks cover the arrays.
  The reference computes it over all rows at once, adds the two biases one at a time between the two products — the same
  sum of four extended reals regrouped, which needs only that addition is commutative and associative — and spells σ out as
  the quotient it is defined to be. Narrowing to a sixteen-bit format before the products is the identity on the extended
  reals, and a product on the matrix unit from a zero accumulator is the same sum over k as the host's contraction. Nothing
  here needs the inputs to be finite.

  The three programs terminate without a fault and leave their arguments unchanged: for the two kernel programs that is
  the generated frame, for the reference its generated run with the results dropped. The idealization rewrote no operation,
  so there is nothing to preserve beyond the program's own text.
-/
import proofs.«180719_j46669114638611_2_alg».proof.Defs
import proofs.«180719_j46669114638611_2_alg».proof.Proof.Gen.Kernel
import proofs.«180719_j46669114638611_2_alg».proof.Proof.Gen.Kernel.Frame
import proofs.«180719_j46669114638611_2_alg».proof.Proof.Gen.KernelIdeal
import proofs.«180719_j46669114638611_2_alg».proof.Proof.Gen.KernelIdeal.Frame
import proofs.«180719_j46669114638611_2_alg».proof.Proof.Gen.KernelIdeal.Value
import proofs.«180719_j46669114638611_2_alg».proof.Proof.Gen.ReferenceIdeal
import proofs.«180719_j46669114638611_2_alg».proof.Proof.Gen.ReferenceIdeal.Run
import proofs.«180719_j46669114638611_2_alg».proof.Proof.Gen.ReferenceIdeal.Read
import proofs.«180719_j46669114638611_2_alg».proof.Proof.Gen.Pre_finite_inputs
import proofs.«180719_j46669114638611_2_alg».proof.Proof.Blocks
import proofs.«180719_j46669114638611_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The messages are one term of the arguments in both programs: the same gather and scatter-add of the same operands. -/
theorem msg_same (x0 : FVec Ideal Cert.KernelIdeal.S800000x128 .f32) (x7 x8 : IVec Cert.KernelIdeal.S1600000 32) :
    Cert.KernelIdeal.Entry.msgOf x0 x7 x8 = Cert.ReferenceIdeal.Read.val_main_v9 (F := Ideal) x0 x7 x8 := rfl

/-- From memories agreeing on the arguments both programs end with the new hidden states and the new cell states of
    those arguments. -/
theorem algebraic : Cert.algebraic_KernelIdeal_ReferenceIdeal := by
  intro m ρ m' ρ' _ hagree
  refine ⟨fun c => Cert.KernelIdeal.Blocks.hiddenA m c, fun c => Cert.KernelIdeal.Blocks.cellA m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, -⟩ := hagree c
    rw [Cert.ReferenceIdeal.Read.val_main_v48_eq, Cert.ReferenceIdeal.RefValue.ref_hidden_eq, a0, a1, a2, a3, a4, a5, a6, a7, a8,
      ← msg_same]
  · obtain ⟨a0, a1, a2, a3, a4, a5, a6, a7, a8, -⟩ := hagree c
    rw [Cert.ReferenceIdeal.Read.val_main_v46_eq, Cert.ReferenceIdeal.RefValue.ref_cell_eq, a0, a1, a2, a3, a4, a5, a6, a7, a8,
      ← msg_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
